-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x4096x3 : Shape := ⟨4, ![8, 4, 4096, 3]⟩
abbrev S8x1x4096x3 : Shape := ⟨4, ![8, 1, 4096, 3]⟩
abbrev S_ : Shape := ⟨0, ![]⟩

class Facts : Prop where
  bcast_S_S8x4x4096x3 : S_.BroadcastsInDim S8x4x4096x3 (![] : Fin 0 → Fin S8x4x4096x3.rank)
  reducesTo_S8x4x4096x3_S_d0_1_2_3 : S8x4x4096x3.ReducesTo [0, 1, 2, 3] S_
  h_S_ : 0 < S_.numel
  bcast_S_S8x1x4096x3 : S_.BroadcastsInDim S8x1x4096x3 (![] : Fin 0 → Fin S8x1x4096x3.rank)
  reducesTo_S8x1x4096x3_S_d0_1_2_3 : S8x1x4096x3.ReducesTo [0, 1, 2, 3] S_

variable [Facts]

def fn {F : FTy → Type} [FloatOps F] (main_arg0 : FVec F S8x4x4096x3 .f32) (main_arg1 : FVec F S8x1x4096x3 .f32) (main_arg2 : FVec F S8x1x4096x3 .f32) : IVec S_ 1 :=
  let main_v0 : FVec F S8x4x4096x3 .f32 := Host.absf main_arg0
  let main_cst : FVec F S_ .f32 := constant S_ .f32 0x7F800000#32
  let main_v1 : FVec F S8x4x4096x3 .f32 := broadcastInDim S8x4x4096x3 ![] bcast_S_S8x4x4096x3 main_cst
  let main_v2 : IVec S8x4x4096x3 1 := cmpf .olt main_v0 main_v1
  let main_c : IVec S_ 1 := constantI S_ 1 1#1
  let main_v3 : IVec S_ 1 := (fun x v => Host.reduce IntOp.andi x v reducesTo_S8x4x4096x3_S_d0_1_2_3 h_S_) main_v2 main_c
  let main_v4 : FVec F S8x1x4096x3 .f32 := Host.absf main_arg1
  let main_cst_0 : FVec F S_ .f32 := constant S_ .f32 0x7F800000#32
  let main_v5 : FVec F S8x1x4096x3 .f32 := broadcastInDim S8x1x4096x3 ![] bcast_S_S8x1x4096x3 main_cst_0
  let main_v6 : IVec S8x1x4096x3 1 := cmpf .olt main_v4 main_v5
  let main_c_1 : IVec S_ 1 := constantI S_ 1 1#1
  let main_v7 : IVec S_ 1 := (fun x v => Host.reduce IntOp.andi x v reducesTo_S8x1x4096x3_S_d0_1_2_3 h_S_) main_v6 main_c_1
  let main_v8 : IVec S_ 1 := andi main_v3 main_v7
  let main_v9 : FVec F S8x1x4096x3 .f32 := Host.absf main_arg2
  let main_cst_2 : FVec F S_ .f32 := constant S_ .f32 0x7F800000#32
  let main_v10 : FVec F S8x1x4096x3 .f32 := broadcastInDim S8x1x4096x3 ![] bcast_S_S8x1x4096x3 main_cst_2
  let main_v11 : IVec S8x1x4096x3 1 := cmpf .olt main_v9 main_v10
  let main_c_3 : IVec S_ 1 := constantI S_ 1 1#1
  let main_v12 : IVec S_ 1 := (fun x v => Host.reduce IntOp.andi x v reducesTo_S8x1x4096x3_S_d0_1_2_3 h_S_) main_v11 main_c_3
  let main_v13 : IVec S_ 1 := andi main_v8 main_v12
  main_v13
-- ==== Kernel.lean ====
abbrev S8x4x4096x3 : Shape := ⟨4, ![8, 4, 4096, 3]⟩
abbrev S8x1x4096x3 : Shape := ⟨4, ![8, 1, 4096, 3]⟩
abbrev S8x4096x3 : Shape := ⟨3, ![8, 4096, 3]⟩
abbrev S8x1x4096 : Shape := ⟨3, ![8, 1, 4096]⟩
abbrev S1x4096x3 : Shape := ⟨3, ![1, 4096, 3]⟩
abbrev S1x256x3 : Shape := ⟨3, ![1, 256, 3]⟩
abbrev S1x1x256 : Shape := ⟨3, ![1, 1, 256]⟩
abbrev S4096x3 : Shape := ⟨2, ![4096, 3]⟩
abbrev S256x3 : Shape := ⟨2, ![256, 3]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S1x256 : Shape := ⟨2, ![1, 256]⟩
abbrev S4096x256 : Shape := ⟨2, ![4096, 256]⟩
abbrev S8x4096 : Shape := ⟨2, ![8, 4096]⟩
abbrev S_ : Shape := ⟨0, ![]⟩
abbrev S8x1x4096x1 : Shape := ⟨4, ![8, 1, 4096, 1]⟩

abbrev nBuf : Space → Nat
  | .hbm => 81
  | .vmem => 6
  | .smem => 0
  | _ => 0

abbrev bufTy : (tb : Table) → Fin (tcTables nBuf tb) → BufTy
  | .hbm, ⟨0, _⟩ => ⟨S8x4x4096x3, .f32⟩
  | .hbm, ⟨1, _⟩ => ⟨S8x1x4096x3, .f32⟩
  | .hbm, ⟨2, _⟩ => ⟨S8x1x4096x3, .f32⟩
  | .hbm, ⟨3, _⟩ => ⟨S8x1x4096x3, .f32⟩
  | .hbm, ⟨4, _⟩ => ⟨S8x4096x3, .f32⟩
  | .hbm, ⟨5, _⟩ => ⟨S8x4096x3, .f32⟩
  | .hbm, ⟨6, _⟩ => ⟨S8x1x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .i1⟩
  | .hbm, ⟨11, _⟩ => ⟨S8x1x4096x1, .i1⟩
  | .hbm, ⟨12, _⟩ => ⟨S_, .f32⟩
  | .hbm, ⟨13, _⟩ => ⟨S8x4096, .f32⟩
  | .hbm, ⟨14, _⟩ => ⟨S8x4096, .i1⟩
  | .hbm, ⟨15, _⟩ => ⟨S8x1x4096x1, .i1⟩
  | .hbm, ⟨16, _⟩ => ⟨S8x1x4096x3, .f32⟩
  | .hbm, ⟨17, _⟩ => ⟨S8x1x4096x1, .f32⟩
  | .hbm, ⟨18, _⟩ => ⟨S8x1x4096x3, .f32⟩
  | .hbm, ⟨19, _⟩ => ⟨S8x1x4096x3, .f32⟩
  | .hbm, ⟨20, _⟩ => ⟨S8x1x4096x3, .f32⟩
  | .hbm, ⟨21, _⟩ => ⟨S_, .f32⟩
  | .hbm, ⟨22, _⟩ => ⟨S8x1x4096, .f32⟩
  | .hbm, ⟨23, _⟩ => ⟨S_, .f32⟩
  | .hbm, ⟨24, _⟩ => ⟨S8x1x4096, .f32⟩
  | .hbm, ⟨25, _⟩ => ⟨S8x1x4096, .i1⟩
  | .hbm, ⟨26, _⟩ => ⟨S_, .f32⟩
  | .hbm, ⟨27, _⟩ => ⟨S_, .f32⟩
  | .hbm, ⟨28, _⟩ => ⟨S8x1x4096, .f32⟩
  | .hbm, ⟨29, _⟩ => ⟨S8x1x4096, .f32⟩
  | .hbm, ⟨30, _⟩ => ⟨S8x1x4096, .f32⟩
  | .hbm, ⟨31, _⟩ => ⟨S8x1x4096, .i32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S8x1x4096, .f32⟩
  | .hbm, ⟨36, _⟩ => ⟨S8x1x4096, .f32⟩
  | .hbm, ⟨37, _⟩ => ⟨S_, .f32⟩
  | .hbm, ⟨38, _⟩ => ⟨S8x1x4096, .f32⟩
  | .hbm, ⟨39, _⟩ => ⟨S8x1x4096, .f32⟩
  | .hbm, ⟨40, _⟩ => ⟨S8x1x4096, .f32⟩
  | .hbm, ⟨41, _⟩ => ⟨S8x1x4096, .f32⟩
  | .hbm, ⟨42, _⟩ => ⟨S8x1x4096, .i1⟩
  | .hbm, ⟨43, _⟩ => ⟨S8x1x4096, .f32⟩
  | .hbm, ⟨44, _⟩ => ⟨S8x1x4096, .f32⟩
  | .hbm, ⟨45, _⟩ => ⟨S8x1x4096, .f32⟩
  | .hbm, ⟨46, _⟩ => ⟨S8x1x4096, .f32⟩
  | .hbm, ⟨47, _⟩ => ⟨S8x1x4096, .f32⟩
  | .hbm, ⟨48, _⟩ => ⟨S8x1x4096, .f32⟩
  | .hbm, ⟨49, _⟩ => ⟨S8x1x4096, .f32⟩
  | .hbm, ⟨50, _⟩ => ⟨S8x1x4096, .f32⟩
  | .hbm, ⟨51, _⟩ => ⟨S_, .f32⟩
  | .hbm, ⟨52, _⟩ => ⟨S_, .f32⟩
  | .hbm, ⟨53, _⟩ => ⟨S8x1x4096, .f32⟩
  | .hbm, ⟨54, _⟩ => ⟨S8x1x4096, .f32⟩
  | .hbm, ⟨55, _⟩ => ⟨S_, .f32⟩
  | .hbm, ⟨56, _⟩ => ⟨S_, .f32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S8x1x4096x1, .f32⟩
  | .hbm, ⟨62, _⟩ => ⟨S8x1x4096x3, .f32⟩
  | .hbm, ⟨63, _⟩ => ⟨S8x1x4096x3, .f32⟩
  | .hbm, ⟨64, _⟩ => ⟨S_, .f32⟩
  | .hbm, ⟨65, _⟩ => ⟨S8x1x4096x3, .f32⟩
  | .hbm, ⟨66, _⟩ => ⟨S8x1x4096x3, .i1⟩
  | .hbm, ⟨67, _⟩ => ⟨S8x1x4096x3, .i32⟩
  | .hbm, ⟨68, _⟩ => ⟨S_, .i32⟩
  | .hbm, ⟨69, _⟩ => ⟨S_, .i32⟩
  | .hbm, ⟨70, _⟩ => ⟨S8x1x4096x3, .f32⟩
  | .hbm, ⟨71, _⟩ => ⟨S_, .f32⟩
  | .hbm, ⟨72, _⟩ => ⟨S_, .f32⟩
  | .hbm, ⟨73, _⟩ => ⟨S8x1x4096x3, .f32⟩
  | .hbm, ⟨74, _⟩ => ⟨S8x1x4096x3, .f32⟩
  | .hbm, ⟨75, _⟩ => ⟨S_, .f32⟩
  | .hbm, ⟨76, _⟩ => ⟨S_, .f32⟩
  | .hbm, ⟨77, _⟩ => ⟨S_, .i32⟩
  | .hbm, ⟨78, _⟩ => ⟨S_, .i32⟩
  | .hbm, ⟨79, _⟩ => ⟨S_, .f32⟩
  | .hbm, ⟨80, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x256x3, .f32⟩
  | .local _ .vmem, ⟨3, _⟩ => ⟨S1x256x3, .f32⟩
  | .local _ .vmem, ⟨4, _⟩ => ⟨S1x1x256, .f32⟩
  | .local _ .vmem, ⟨5, _⟩ => ⟨S1x1x256, .f32⟩
  | _, _ => ⟨S8x4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_v25 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_c_7 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_9 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_call3_v0 : Ref sig .tc := ⟨.hbm, 72, rfl⟩
abbrev main_call3_v1 : Ref sig .tc := ⟨.hbm, 73, rfl⟩
abbrev main_v39 : Ref sig .tc := ⟨.hbm, 74, rfl⟩
abbrev main_cst_11 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8x4x4096x3_S8x1x4096x3_0_2_0_0 : S8x4x4096x3.Slices ![0, 2, 0, 0] S8x1x4096x3
  shapeCasts_S8x1x4096x3_S8x4096x3 : S8x1x4096x3.ShapeCasts S8x4096x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  reduces_S4096x3_S4096 : S4096x3.Reduces [1] S4096
  shapeCasts_S4096_S4096x1 : S4096.ShapeCasts S4096x1
  reduces_S256x3_S256 : S256x3.Reduces [1] S256
  shapeCasts_S256_S256x1 : S256.ShapeCasts S256x1
  transposes_S256x1_p1_0_S1x256 : S256x1.Transposes [1, 0] S1x256
  bitsLt_bf16_f32 : FTy.bits .bf16 < FTy.bits .f32
  broadcasts_S4096x1_S4096x256 : S4096x1.Broadcasts S4096x256
  broadcasts_S1x256_S4096x256 : S1x256.Broadcasts S4096x256
  reduces_S4096x256_S256 : S4096x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S8x1x4096_S8x4096 : S8x1x4096.ShapeCasts S8x4096
  bcast_S_S8x4096 : S_.BroadcastsInDim S8x4096 (![] : Fin 0 → Fin S8x4096.rank)
  bcast_S8x4096_S8x1x4096x1_0_2 : S8x4096.BroadcastsInDim S8x1x4096x1 (![0, 2] : Fin 2 → Fin S8x1x4096x1.rank)
  bcast_S8x1x4096x1_S8x1x4096x3_0_1_2_3 : S8x1x4096x1.BroadcastsInDim S8x1x4096x3 (![0, 1, 2, 3] : Fin 4 → Fin S8x1x4096x3.rank)
  reducesTo_S8x1x4096x3_S8x1x4096_d3 : S8x1x4096x3.ReducesTo [3] S8x1x4096
  h_S_ : 0 < S_.numel
  bcast_S_S8x1x4096 : S_.BroadcastsInDim S8x1x4096 (![] : Fin 0 → Fin S8x1x4096.rank)
  natLt_1_32 : 1 < 32
  reducesTo_S8x1x4096_S_d0_1_2 : S8x1x4096.ReducesTo [0, 1, 2] S_
  bcast_S_S8x1x4096x3 : S_.BroadcastsInDim S8x1x4096x3 (![] : Fin 0 → Fin S8x1x4096x3.rank)
  reducesTo_S8x1x4096x3_S_d0_1_2_3 : S8x1x4096x3.ReducesTo [0, 1, 2, 3] S_
  dot_S4096x3_S256x3_S4096x256_1_1_0_0_n_n_wf : DotDims.WF S4096x3 S256x3 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S8x4096x3.size a
  hwx0_1 : ∀ i : grid0.Coords, EltTy.bits .f32 = 32 ∨ (Rect.block (s := S8x4096x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x4096.size a
  hwx0_2 : ∀ i : grid0.Coords, EltTy.bits .f32 = 32 ∨ (Rect.block (s := S8x1x4096) S1x1x256.size (cc0_transform_2 i) (hinb0_2 i)).WholeWords (EltTy.packing .f32)

variable [Facts₀]

def dot_S4096x3_S256x3_S4096x256_1_1_0_0_n_n : DotDims S4096x3 S256x3 S4096x256 where
  lhsContracting := [1]
  rhsContracting := [1]
  lhsNonContracting := [0]
  rhsNonContracting := [0]
  lhsBatch := []
  rhsBatch := []
  wf := dot_S4096x3_S256x3_S4096x256_1_1_0_0_n_n_wf

abbrev win0_0 : Pipeline.Window sig grid0 :=
  Pipeline.Window.ofSpec (Memref.whole main_v1) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4x4096x3 : Shape := ⟨4, ![8, 4, 4096, 3]⟩
abbrev S8x1x4096x3 : Shape := ⟨4, ![8, 1, 4096, 3]⟩
abbrev S8x4096x3 : Shape := ⟨3, ![8, 4096, 3]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩
abbrev S8x1x4096x1 : Shape := ⟨4, ![8, 1, 4096, 1]⟩

abbrev nBuf : Space → Nat
  | .hbm => 97
  | .vmem => 0
  | .smem => 0
  | _ => 0

abbrev bufTy : (tb : Table) → Fin (tcTables nBuf tb) → BufTy
  | .hbm, ⟨0, _⟩ => ⟨S8x4x4096x3, .f32⟩
  | .hbm, ⟨1, _⟩ => ⟨S8x1x4096x3, .f32⟩
  | .hbm, ⟨2, _⟩ => ⟨S8x1x4096x3, .f32⟩
  | .hbm, ⟨3, _⟩ => ⟨S8x1x4096x3, .f32⟩
  | .hbm, ⟨4, _⟩ => ⟨S8x4096x3, .f32⟩
  | .hbm, ⟨5, _⟩ => ⟨S8x4096x3, .f32⟩
  | .hbm, ⟨6, _⟩ => ⟨S8x4096x3, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S8x4096x3, .f32⟩
  | .hbm, ⟨11, _⟩ => ⟨S_, .f32⟩
  | .hbm, ⟨12, _⟩ => ⟨S8x4096, .f32⟩
  | .hbm, ⟨13, _⟩ => ⟨S8x1x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .i1⟩
  | .hbm, ⟨27, _⟩ => ⟨S8x1x4096x1, .i1⟩
  | .hbm, ⟨28, _⟩ => ⟨S_, .f32⟩
  | .hbm, ⟨29, _⟩ => ⟨S8x4096, .f32⟩
  | .hbm, ⟨30, _⟩ => ⟨S8x4096, .i1⟩
  | .hbm, ⟨31, _⟩ => ⟨S8x1x4096x1, .i1⟩
  | .hbm, ⟨32, _⟩ => ⟨S8x1x4096x3, .f32⟩
  | .hbm, ⟨33, _⟩ => ⟨S8x1x4096x1, .f32⟩
  | .hbm, ⟨34, _⟩ => ⟨S8x1x4096x3, .f32⟩
  | .hbm, ⟨35, _⟩ => ⟨S8x1x4096x3, .f32⟩
  | .hbm, ⟨36, _⟩ => ⟨S8x1x4096x3, .f32⟩
  | .hbm, ⟨37, _⟩ => ⟨S_, .f32⟩
  | .hbm, ⟨38, _⟩ => ⟨S8x1x4096, .f32⟩
  | .hbm, ⟨39, _⟩ => ⟨S_, .f32⟩
  | .hbm, ⟨40, _⟩ => ⟨S8x1x4096, .f32⟩
  | .hbm, ⟨41, _⟩ => ⟨S8x1x4096, .i1⟩
  | .hbm, ⟨42, _⟩ => ⟨S_, .f32⟩
  | .hbm, ⟨43, _⟩ => ⟨S_, .f32⟩
  | .hbm, ⟨44, _⟩ => ⟨S8x1x4096, .f32⟩
  | .hbm, ⟨45, _⟩ => ⟨S8x1x4096, .f32⟩
  | .hbm, ⟨46, _⟩ => ⟨S8x1x4096, .f32⟩
  | .hbm, ⟨47, _⟩ => ⟨S8x1x4096, .i32⟩
  | .hbm, ⟨48, _⟩ => ⟨S_, .i32⟩
  | .hbm, ⟨49, _⟩ => ⟨S_, .i32⟩
  | .hbm, ⟨50, _⟩ => ⟨S_, .f32⟩
  | .hbm, ⟨51, _⟩ => ⟨S8x1x4096, .f32⟩
  | .hbm, ⟨52, _⟩ => ⟨S8x1x4096, .f32⟩
  | .hbm, ⟨53, _⟩ => ⟨S_, .f32⟩
  | .hbm, ⟨54, _⟩ => ⟨S8x1x4096, .f32⟩
  | .hbm, ⟨55, _⟩ => ⟨S8x1x4096, .f32⟩
  | .hbm, ⟨56, _⟩ => ⟨S8x1x4096, .f32⟩
  | .hbm, ⟨57, _⟩ => ⟨S8x1x4096, .f32⟩
  | .hbm, ⟨58, _⟩ => ⟨S8x1x4096, .i1⟩
  | .hbm, ⟨59, _⟩ => ⟨S8x1x4096, .f32⟩
  | .hbm, ⟨60, _⟩ => ⟨S8x1x4096, .f32⟩
  | .hbm, ⟨61, _⟩ => ⟨S8x1x4096, .f32⟩
  | .hbm, ⟨62, _⟩ => ⟨S8x1x4096, .f32⟩
  | .hbm, ⟨63, _⟩ => ⟨S8x1x4096, .f32⟩
  | .hbm, ⟨64, _⟩ => ⟨S8x1x4096, .f32⟩
  | .hbm, ⟨65, _⟩ => ⟨S8x1x4096, .f32⟩
  | .hbm, ⟨66, _⟩ => ⟨S8x1x4096, .f32⟩
  | .hbm, ⟨67, _⟩ => ⟨S_, .f32⟩
  | .hbm, ⟨68, _⟩ => ⟨S_, .f32⟩
  | .hbm, ⟨69, _⟩ => ⟨S8x1x4096, .f32⟩
  | .hbm, ⟨70, _⟩ => ⟨S8x1x4096, .f32⟩
  | .hbm, ⟨71, _⟩ => ⟨S_, .f32⟩
  | .hbm, ⟨72, _⟩ => ⟨S_, .f32⟩
  | .hbm, ⟨73, _⟩ => ⟨S_, .i32⟩
  | .hbm, ⟨74, _⟩ => ⟨S_, .i32⟩
  | .hbm, ⟨75, _⟩ => ⟨S_, .f32⟩
  | .hbm, ⟨76, _⟩ => ⟨S_, .f32⟩
  | .hbm, ⟨77, _⟩ => ⟨S8x1x4096x1, .f32⟩
  | .hbm, ⟨78, _⟩ => ⟨S8x1x4096x3, .f32⟩
  | .hbm, ⟨79, _⟩ => ⟨S8x1x4096x3, .f32⟩
  | .hbm, ⟨80, _⟩ => ⟨S_, .f32⟩
  | .hbm, ⟨81, _⟩ => ⟨S8x1x4096x3, .f32⟩
  | .hbm, ⟨82, _⟩ => ⟨S8x1x4096x3, .i1⟩
  | .hbm, ⟨83, _⟩ => ⟨S8x1x4096x3, .i32⟩
  | .hbm, ⟨84, _⟩ => ⟨S_, .i32⟩
  | .hbm, ⟨85, _⟩ => ⟨S_, .i32⟩
  | .hbm, ⟨86, _⟩ => ⟨S8x1x4096x3, .f32⟩
  | .hbm, ⟨87, _⟩ => ⟨S_, .f32⟩
  | .hbm, ⟨88, _⟩ => ⟨S_, .f32⟩
  | .hbm, ⟨89, _⟩ => ⟨S8x1x4096x3, .f32⟩
  | .hbm, ⟨90, _⟩ => ⟨S8x1x4096x3, .f32⟩
  | .hbm, ⟨91, _⟩ => ⟨S_, .f32⟩
  | .hbm, ⟨92, _⟩ => ⟨S_, .f32⟩
  | .hbm, ⟨93, _⟩ => ⟨S_, .i32⟩
  | .hbm, ⟨94, _⟩ => ⟨S_, .i32⟩
  | .hbm, ⟨95, _⟩ => ⟨S_, .f32⟩
  | .hbm, ⟨96, _⟩ => ⟨S_, .f32⟩
  | _, _ => ⟨S8x4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_v37 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_c_11 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_12 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_13 : Ref sig .tc := ⟨.hbm, 84, rfl⟩
abbrev main_v49 : Ref sig .tc := ⟨.hbm, 85, rfl⟩
abbrev main_v50 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_v51 : Ref sig .tc := ⟨.hbm, 90, rfl⟩
abbrev main_cst_15 : Ref sig .tc := ⟨.hbm, 91, rfl⟩
abbrev main_v52 : Ref sig .tc := ⟨.hbm, 92, rfl⟩
abbrev main_c_16 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩

abbrev nD : Nat := 1
abbrev τ : Topo := Topo.v7x

variable {F : FTy → Type} [FloatOps F]

class Facts₀ : Prop where
  slices_S8x4x4096x3_S8x1x4096x3_0_2_0_0 : S8x4x4096x3.Slices ![0, 2, 0, 0] S8x1x4096x3
  shapeCasts_S8x1x4096x3_S8x4096x3 : S8x1x4096x3.ShapeCasts S8x4096x3
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  bcast_S_S8x4096 : S_.BroadcastsInDim S8x4096 (![] : Fin 0 → Fin S8x4096.rank)
  bcast_S8x4096_S8x1x4096x1_0_2 : S8x4096.BroadcastsInDim S8x1x4096x1 (![0, 2] : Fin 2 → Fin S8x1x4096x1.rank)
  bcast_S8x1x4096x1_S8x1x4096x3_0_1_2_3 : S8x1x4096x1.BroadcastsInDim S8x1x4096x3 (![0, 1, 2, 3] : Fin 4 → Fin S8x1x4096x3.rank)
  reducesTo_S8x1x4096x3_S8x1x4096_d3 : S8x1x4096x3.ReducesTo [3] S8x1x4096
  bcast_S_S8x1x4096 : S_.BroadcastsInDim S8x1x4096 (![] : Fin 0 → Fin S8x1x4096.rank)
  natLt_1_32 : 1 < 32
  reducesTo_S8x1x4096_S_d0_1_2 : S8x1x4096.ReducesTo [0, 1, 2] S_
  bcast_S_S8x1x4096x3 : S_.BroadcastsInDim S8x1x4096x3 (![] : Fin 0 → Fin S8x1x4096x3.rank)
  reducesTo_S8x1x4096x3_S_d0_1_2_3 : S8x1x4096x3.ReducesTo [0, 1, 2, 3] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.K.Host.lean ====
/-
  The host side of `Kernel`'s run, at any float instance: what each buffer holds when the one region is
  entered (the three host lines before it applied to the launch memory), that the program is those lines, the
  region, and then nine stretches of host lines; that the later lines touch only the region's arrays and the
  buffers that bypass it, allocate nothing and write none of the three arrays the region's windows stage; and
  that no host line, before or after, writes an argument array — so each argument ends as launched.
-/
import proofs.«135733_j25829933318825_2_alg».proof.Proof.Gen.Kernel.Launch
import proofs.«135733_j25829933318825_2_alg».proof.Proof.Gen.Kernel.Points
import Idealize.ShloMosaic.Lib.Pipeline.FrameBody
import Idealize.ShloMosaic.Lib.Pipeline.FrameSuffix

set_option maxRecDepth 16384

noncomputable section

namespace Cert.Kernel.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The stretches of host lines that follow the region, in program order. -/
abbrev tailOps : List (List (HloOp τ sig (Elt F))) :=
  [hostOps1, hostOps1_1, hostOps1_2, hostOps1_3, hostOps1_4, hostOps1_5, hostOps1_6, hostOps1_7, hostOps1_8]

/-- Core `c`'s buffers when the region is entered: the three host lines before it (the slice of frame 2 of
    `x`, and the two reshapes that drop the unit axis) applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The program is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later line touches only the region's arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- None allocates. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes one of the three staged arrays: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- No later line writes a staged array. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 0 either, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 1 either, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 2 either, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run that ends with every bypassing buffer as the later lines leave it: the three
    arguments are bypassing buffers (no window stages an argument itself) that no line writes. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

end Cert.Kernel.Frm

end
-- ==== Proof.K.Body.lean ====
/-
  The kernel body of `Kernel` at one grid point, at any float instance. The body loads its reference-set block
  (4096 points × 3 coordinates) and its query tile (256 × 3) whole, computes for each of the 256 queries the
  least over the 4096 reference points of |p|² + |q|² − 2 p·q, and stores that row whole into its output
  buffer (1 × 1 × 256); it also loads the output buffer once and never uses what it read. So it runs from the
  two inputs held at their contents and the output held at anything, leaves the inputs as they were, and
  leaves the output at the one stored row, read back through the store's rectangle, which covers the buffer.
-/
import proofs.«135733_j25829933318825_2_alg».proof.Proof.Gen.Kernel.Skeleton
import proofs.«135733_j25829933318825_2_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The whole reference-set buffer, the whole query-tile buffer, the whole output buffer, as rectangles. -/
abbrev rectP : Rect S1x4096x3 := Rect.unit (s := S1x4096x3) ![0, 0, 0] S1x4096x3.size inb_S1x4096x3_S1x4096x3_0_0_0
abbrev rectQ : Rect S1x256x3 := Rect.unit (s := S1x256x3) ![0, 0, 0] S1x256x3.size inb_S1x256x3_S1x256x3_0_0_0
abbrev rectD : Rect S1x1x256 := Rect.unit (s := S1x1x256) ![0, 0, 0] S1x1x256.size inb_S1x1x256_S1x1x256_0_0_0

/-- What the body leaves in the output buffer, from the two input blocks: its one store, of the row of least
    squared distances computed from the two loaded blocks. -/
def outRow (xp : Vec F S1x4096x3 .f32) (xq : Vec F S1x256x3 .f32) : Vec F S1x1x256 .f32 :=
  View.canon [⟨rectD, k0_pay1 (View.ld xp rectP) (View.ld xq rectQ)⟩]

/-- The one store covers the output buffer. -/
theorem cover_row (p0 : Vec F S1x1x256 .f32) (y : S1x1x256.Idx) :
    ∃ pc ∈ ([⟨rectD, p0⟩] : List (View.Piece (Elt F) S1x1x256 .f32)), y ∈ pc.1.set :=
  View.cover_of_tiled [⟨rectD, p0⟩] S1x1x256.size (by rfl) y

set_option maxHeartbeats 1000000 in
/-- The body on whole staging buffers: inputs held at `xp`, `xq`, the output at anything; afterwards the inputs
    are as they were and the output holds `outRow xp xq`. -/
theorem sound_kernel (c : Dev nD) (E : Set ℕ) (i : grid0.Coords)
    (arg2 : Memref sig .tc .vmem S1x4096x3 .f32) (harg2 : arg2.IsWhole)
    (arg3 : Memref sig .tc .vmem S1x256x3 .f32) (harg3 : arg3.IsWhole)
    (arg4 : Memref sig .tc .vmem S1x1x256 .f32) (harg4 : arg4.IsWhole)
    (xp : Vec F S1x4096x3 .f32) (xq : Vec F S1x256x3 .f32) (K : PUnit → sProp 𝕄) :
    iprop(owns (c : Thread nD τ) arg2 fullShare xp ∗ owns (c : Thread nD τ) arg3 fullShare xq
        ∗ (∃ d, owns (c : Thread nD τ) arg4 fullShare d)
        ∗ (iprop(owns (c : Thread nD τ) arg2 fullShare xp ∗ owns (c : Thread nD τ) arg3 fullShare xq
            ∗ owns (c : Thread nD τ) arg4 fullShare (outRow xp xq)) -∗ K ⟨⟩))
      ⊢ wp frame (wpE (defs₀ (F := F)) Variants.none c none) E (cc0__chamfer_kernel i arg2 harg2 arg3 harg3 arg4 harg4) K := by
  simp only [cc0__chamfer_kernel_eq_skeleton]; unfold cc0__chamfer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_row _)

end Cert.Kernel.Frm

end
-- ==== Proof.K.Run.lean ====
/-
  The run of `Kernel`, at any float instance: the proof data of its one region (each input window's buffer keeps
  its block; the output window's buffer holds, after the body at a point, the row of least squared distances
  computed from that point's two input blocks), the body's obligation at every grid point from the body's run,
  and the run of the whole program — every weakly fair execution ends, faulting nowhere, with the output array at
  the rows written back point by point and every bypassing buffer as the later host lines leave it. The frame
  claim follows: no line and no window writes an argument.
-/
import proofs.«135733_j25829933318825_2_alg».proof.Proof.K.Host
import proofs.«135733_j25829933318825_2_alg».proof.Proof.K.Body

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`: the arrays as the region finds them; after the body at point `t` each
    input buffer at its block and the output buffer at the row computed from the two blocks; nothing else held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outRow (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_P (c : Dev nD) (t : Fin cfg0.N) : (dats m 0 c).after 0 t = iblk m c 0 t := by dsimp only [dats]
theorem after_Q (c : Dev nD) (t : Fin cfg0.N) : (dats m 0 c).after 1 t = iblk m c 1 t := by dsimp only [dats]
theorem after_D (c : Dev nD) (t : Fin cfg0.N) :
    (dats m 0 c).after 2 t = outRow (iblk m c 0 t) (iblk m c 1 t) := by dsimp only [dats]

theorem before_P (c : Dev nD) (t : Fin cfg0.N) (d) : (dats m 0 c).before 0 t d = iblk m c 0 t :=
  before0_of m (dats m 0 c) (A_eq m c 0) (after_P m c) t d
theorem before_Q (c : Dev nD) (t : Fin cfg0.N) (d) : (dats m 0 c).before 1 t d = iblk m c 1 t :=
  before1_of m (dats m 0 c) (A_eq m c 1) (after_Q m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's run applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_P, before_Q]
  rw [show (dats m 0 c).Φ t.succ = (dats m 0 c).Φ t.castSucc from rfl,
    show (dats m 0 c).owesAt () t.succ = (dats m 0 c).owesAt () t.castSucc from rfl,
    after_P, after_Q, after_D]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program on the TensorCores terminates, faulting nowhere, with every staged array
    at what the proof data says and every bypassing buffer as the later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Frm

end
-- ==== Proof.KI.Host.lean ====
/-
  The host side of `KernelIdeal`'s run, at any float instance: what each buffer holds when the one region is
  entered (the three host lines before it applied to the launch memory), that the program is those lines, the
  region, and then nine stretches of host lines; that the later lines touch only the region's arrays and the
  buffers that bypass it, allocate nothing and write none of the three arrays the region's windows stage; and
  that no host line, before or after, writes an argument array — so each argument ends as launched.
-/
import proofs.«135733_j25829933318825_2_alg».proof.Proof.Gen.KernelIdeal.Launch
import proofs.«135733_j25829933318825_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Frm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The stretches of host lines that follow the region, in program order. -/
abbrev tailOps : List (List (HloOp τ sig (Elt F))) :=
  [hostOps1, hostOps1_1, hostOps1_2, hostOps1_3, hostOps1_4, hostOps1_5, hostOps1_6, hostOps1_7, hostOps1_8]

/-- Core `c`'s buffers when the region is entered: the three host lines before it (the slice of frame 2 of
    `x`, and the two reshapes that drop the unit axis) applied to the launch memory. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- The program is: the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later line touches only the region's arrays and the buffers that bypass the region. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- None allocates. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes one of the three staged arrays: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No line of this stretch writes one of the three staged arrays: each writes its own result buffer only. -/
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- No later line writes a staged array. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop

/-- No line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 0 either, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 1 either, and no window stages it: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 2 either, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, hostOps1_7, hostOps1_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over these arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run that ends with every bypassing buffer as the later lines leave it: the three
    arguments are bypassing buffers (no window stages an argument itself) that no line writes. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

end Cert.KernelIdeal.Frm

end
-- ==== Proof.KI.Body.lean ====
/-
  The kernel body of `KernelIdeal` at one grid point, at any float instance. The body loads its reference-set block
  (4096 points × 3 coordinates) and its query tile (256 × 3) whole, computes for each of the 256 queries the
  least over the 4096 reference points of |p|² + |q|² − 2 p·q, and stores that row whole into its output
  buffer (1 × 1 × 256); it also loads the output buffer once and never uses what it read. So it runs from the
  two inputs held at their contents and the output held at anything, leaves the inputs as they were, and
  leaves the output at the one stored row, read back through the store's rectangle, which covers the buffer.
-/
import proofs.«135733_j25829933318825_2_alg».proof.Proof.Gen.KernelIdeal.Skeleton
import proofs.«135733_j25829933318825_2_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The whole reference-set buffer, the whole query-tile buffer, the whole output buffer, as rectangles. -/
abbrev rectP : Rect S1x4096x3 := Rect.unit (s := S1x4096x3) ![0, 0, 0] S1x4096x3.size inb_S1x4096x3_S1x4096x3_0_0_0
abbrev rectQ : Rect S1x256x3 := Rect.unit (s := S1x256x3) ![0, 0, 0] S1x256x3.size inb_S1x256x3_S1x256x3_0_0_0
abbrev rectD : Rect S1x1x256 := Rect.unit (s := S1x1x256) ![0, 0, 0] S1x1x256.size inb_S1x1x256_S1x1x256_0_0_0

/-- What the body leaves in the output buffer, from the two input blocks: its one store, of the row of least
    squared distances computed from the two loaded blocks. -/
def outRow (xp : Vec F S1x4096x3 .f32) (xq : Vec F S1x256x3 .f32) : Vec F S1x1x256 .f32 :=
  View.canon [⟨rectD, k0_pay1 (View.ld xp rectP) (View.ld xq rectQ)⟩]

/-- The one store covers the output buffer. -/
theorem cover_row (p0 : Vec F S1x1x256 .f32) (y : S1x1x256.Idx) :
    ∃ pc ∈ ([⟨rectD, p0⟩] : List (View.Piece (Elt F) S1x1x256 .f32)), y ∈ pc.1.set :=
  View.cover_of_tiled [⟨rectD, p0⟩] S1x1x256.size (by rfl) y

set_option maxHeartbeats 1000000 in
/-- The body on whole staging buffers: inputs held at `xp`, `xq`, the output at anything; afterwards the inputs
    are as they were and the output holds `outRow xp xq`. -/
theorem sound_kernel (c : Dev nD) (E : Set ℕ) (i : grid0.Coords)
    (arg2 : Memref sig .tc .vmem S1x4096x3 .f32) (harg2 : arg2.IsWhole)
    (arg3 : Memref sig .tc .vmem S1x256x3 .f32) (harg3 : arg3.IsWhole)
    (arg4 : Memref sig .tc .vmem S1x1x256 .f32) (harg4 : arg4.IsWhole)
    (xp : Vec F S1x4096x3 .f32) (xq : Vec F S1x256x3 .f32) (K : PUnit → sProp 𝕄) :
    iprop(owns (c : Thread nD τ) arg2 fullShare xp ∗ owns (c : Thread nD τ) arg3 fullShare xq
        ∗ (∃ d, owns (c : Thread nD τ) arg4 fullShare d)
        ∗ (iprop(owns (c : Thread nD τ) arg2 fullShare xp ∗ owns (c : Thread nD τ) arg3 fullShare xq
            ∗ owns (c : Thread nD τ) arg4 fullShare (outRow xp xq)) -∗ K ⟨⟩))
      ⊢ wp frame (wpE (defs₀ (F := F)) Variants.none c none) E (cc0__chamfer_kernel i arg2 harg2 arg3 harg3 arg4 harg4) K := by
  simp only [cc0__chamfer_kernel_eq_skeleton]; unfold cc0__chamfer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_row _)

end Cert.KernelIdeal.Frm

end
-- ==== Proof.KI.Run.lean ====
/-
  The run of `KernelIdeal`, at any float instance: the proof data of its one region (each input window's buffer keeps
  its block; the output window's buffer holds, after the body at a point, the row of least squared distances
  computed from that point's two input blocks), the body's obligation at every grid point from the body's run,
  and the run of the whole program — every weakly fair execution ends, faulting nowhere, with the output array at
  the rows written back point by point and every bypassing buffer as the later host lines leave it. The frame
  claim follows: no line and no window writes an argument.
-/
import proofs.«135733_j25829933318825_2_alg».proof.Proof.KI.Host
import proofs.«135733_j25829933318825_2_alg».proof.Proof.KI.Body

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`: the arrays as the region finds them; after the body at point `t` each
    input buffer at its block and the output buffer at the row computed from the two blocks; nothing else held. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outRow (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_P (c : Dev nD) (t : Fin cfg0.N) : (dats m 0 c).after 0 t = iblk m c 0 t := by dsimp only [dats]
theorem after_Q (c : Dev nD) (t : Fin cfg0.N) : (dats m 0 c).after 1 t = iblk m c 1 t := by dsimp only [dats]
theorem after_D (c : Dev nD) (t : Fin cfg0.N) :
    (dats m 0 c).after 2 t = outRow (iblk m c 0 t) (iblk m c 1 t) := by dsimp only [dats]

theorem before_P (c : Dev nD) (t : Fin cfg0.N) (d) : (dats m 0 c).before 0 t d = iblk m c 0 t :=
  before0_of m (dats m 0 c) (A_eq m c 0) (after_P m c) t d
theorem before_Q (c : Dev nD) (t : Fin cfg0.N) (d) : (dats m 0 c).before 1 t d = iblk m c 1 t :=
  before1_of m (dats m 0 c) (A_eq m c 1) (after_Q m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's run applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_P, before_Q]
  rw [show (dats m 0 c).Φ t.succ = (dats m 0 c).Φ t.castSucc from rfl,
    show (dats m 0 c).owesAt () t.succ = (dats m 0 c).owesAt () t.castSucc from rfl,
    after_P, after_Q, after_D]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program on the TensorCores terminates, faulting nowhere, with every staged array
    at what the proof data says and every bypassing buffer as the later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Frm

end
-- ==== Proof.KRow.lean ====
/-
  The kernel body's stored row, read at the extended reals: from a reference block of 4096 points and a query tile
  of 256 points (three coordinates each), entry j of the row is the least over the 4096 reference points n of
  |p_n|² + |q_j|² − 2 p_n·q_j, from +∞ — the two lane sums of squares, the matrix product into a zero accumulator as a
  sum over the three coordinates (the change to bf16 before it is the identity here), the column and row broadcasts,
  and the minimum down the reference-point axis, each read at an index.
-/
import proofs.«135733_j25829933318825_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.RowValue

open Cert.KernelIdeal Cert.KernelIdeal.Gen Idealize.ShloMosaic Idealize.ShloMosaic.ValueIdx

variable {α : Type}

/-- A vector of `a` entries cast to one column reads, at (i, 0), entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an [a, 3] vector from the zero word, at row r: the sum of the row's three entries. -/
theorem laneSum_apply {a : ℕ} (src : FVec Ideal ⟨2, ![a, 3]⟩ .f32) (h : (⟨2, ![a, 3]⟩ : Shape).Reduces [1] ⟨1, ![a]⟩) (r : Fin a) :
    multiReduction .add [1] ⟨1, ![a]⟩ src 0x00000000#32 h (.inl rfl) rfl (ix1 r) = ∑ k : Fin 3, src (ix2 r k) := by
  refine (Ideal.multiReduction_add_single src 0x00000000#32 h (.inl rfl) rfl (ix1 r)).trans ?_
  refine Finset.sum_congr rfl fun k _ => congrArg src ?_
  funext c; apply Fin.ext
  fin_cases c <;> rfl

/-- A minimum down the rows of an [a, b] vector from +∞, at column j: the fold of `min` over the rows. -/
theorem colMin_apply {a b : ℕ} (src : FVec Ideal ⟨2, ![a, b]⟩ .f32) (h : (⟨2, ![a, b]⟩ : Shape).Reduces [0] ⟨1, ![b]⟩) (j : Fin b) :
    multiReduction .minimumf [0] ⟨1, ![b]⟩ src 0x7F800000#32 h (.inl rfl) rfl (ix1 j)
      = (Finset.univ : Finset (Fin a)).fold min (Ideal.ofBits .f32 0x7F800000#32) (fun n => src (ix2 n j)) := by
  refine (multiReduction_minimumf_eq_fold src 0x7F800000#32 h (.inl rfl) rfl (ix1 j)).trans ?_
  refine (h.fold_filter_drop_single _ _ src (ix1 j)).trans ?_
  have hf : (src ∘ h.lift (ix1 j)) = fun n : Fin a => src (ix2 n j) := funext fun n => congrArg src (by
    funext c; apply Fin.ext
    fin_cases c <;> rfl)
  exact congrArg (fun f => Finset.fold min (Ideal.ofBits .f32 0x7F800000#32) f (Finset.univ : Finset (Fin a))) hf

/-- The product's left operand index at output (i) and contraction index q: row `i 0`, -/
theorem lhs_row (i : S4096x256.Idx) (q : dot_S4096x3_S256x3_S4096x256_1_1_0_0_n_n.contr.Idx) : (dot_S4096x3_S256x3_S4096x256_1_1_0_0_n_n.lhsIdx i q 0).val = (i 0).val := by
  unfold DotDims.lhsIdx
  rw [dif_neg (show ¬(0 : Fin S4096x3.rank) ∈ dot_S4096x3_S256x3_S4096x256_1_1_0_0_n_n.lhsBatch by decide), dif_pos (show (0 : Fin S4096x3.rank) ∈ dot_S4096x3_S256x3_S4096x256_1_1_0_0_n_n.lhsNonContracting by decide)]
  rfl
/-- and its right operand index: row `i 1`. -/
theorem rhs_row (i : S4096x256.Idx) (q : dot_S4096x3_S256x3_S4096x256_1_1_0_0_n_n.contr.Idx) : (dot_S4096x3_S256x3_S4096x256_1_1_0_0_n_n.rhsIdx i q 0).val = (i 1).val := by
  unfold DotDims.rhsIdx
  rw [dif_neg (show ¬(0 : Fin S256x3.rank) ∈ dot_S4096x3_S256x3_S4096x256_1_1_0_0_n_n.rhsBatch by decide), dif_pos (show (0 : Fin S256x3.rank) ∈ dot_S4096x3_S256x3_S4096x256_1_1_0_0_n_n.rhsNonContracting by decide)]
  rfl

/-- The matrix product of the reference block and the query tile into a zero accumulator, at (n, j): the sum over the
    three coordinates of the products. -/
theorem cross_apply (lhs : FVec Ideal S4096x3 .bf16) (rhs : FVec Ideal S256x3 .bf16) (n : Fin 4096) (j : Fin 256) :
    matmul dot_S4096x3_S256x3_S4096x256_1_1_0_0_n_n none lhs rhs (constant (F := Ideal) S4096x256 .f32 0x00000000#32) (ix2 n j)
      = ∑ k : Fin 3, lhs (ix2 n k) * rhs (ix2 j k) := by
  simp only [matmul]
  rw [Ideal.matmul_constant_zero_apply, ← Equiv.sum_comp (contrEquiv1 dot_S4096x3_S256x3_S4096x256_1_1_0_0_n_n 3 rfl rfl).symm]
  refine Finset.sum_congr rfl fun k _ => ?_
  have hk := contrEquiv1_symm_val dot_S4096x3_S256x3_S4096x256_1_1_0_0_n_n 3 rfl rfl k
  have el : dot_S4096x3_S256x3_S4096x256_1_1_0_0_n_n.lhsIdx (ix2 n j) ((contrEquiv1 dot_S4096x3_S256x3_S4096x256_1_1_0_0_n_n 3 rfl rfl).symm k) = ix2 n k := funext fun a => Fin.ext (by
    match a with
    | ⟨0, _⟩ => exact lhs_row _ _
    | ⟨1, _⟩ => exact (dot_S4096x3_S256x3_S4096x256_1_1_0_0_n_n.lhsIdx_val_of_single rfl _ _).trans hk)
  have er : dot_S4096x3_S256x3_S4096x256_1_1_0_0_n_n.rhsIdx (ix2 n j) ((contrEquiv1 dot_S4096x3_S256x3_S4096x256_1_1_0_0_n_n 3 rfl rfl).symm k) = ix2 j k := funext fun a => Fin.ext (by
    match a with
    | ⟨0, _⟩ => exact rhs_row _ _
    | ⟨1, _⟩ => exact (dot_S4096x3_S256x3_S4096x256_1_1_0_0_n_n.rhsIdx_val_of_single rfl _ _).trans hk)
  rw [el, er]

/-- Entry j of the row the body stores. -/
theorem row_apply (xp : Vec Ideal S1x4096x3 .f32) (xq : Vec Ideal S1x256x3 .f32) (j : Fin 256) :
    k0_pay1 (F := Ideal) xp xq (ix3 (0 : Fin 1) (0 : Fin 1) j)
      = (Finset.univ : Finset (Fin 4096)).fold min (Ideal.ofBits .f32 0x7F800000#32) (fun n =>
          ((∑ k : Fin 3, xp (ix3 (0 : Fin 1) n k) * xp (ix3 (0 : Fin 1) n k))
              + (∑ k : Fin 3, xq (ix3 (0 : Fin 1) j k) * xq (ix3 (0 : Fin 1) j k)))
            - Ideal.ofBits .f32 0x40000000#32 * ∑ k : Fin 3, xp (ix3 (0 : Fin 1) n k) * xq (ix3 (0 : Fin 1) j k)) := by
  unfold k0_pay1
  dsimp only
  refine (shapeCast_ab_1ab_apply _ shapeCasts_S1x256_S1x1x256 (0 : Fin 1) (0 : Fin 1) j).trans ?_
  refine (shapeCast_a_1a_apply _ shapeCasts_S256_S1x256 (0 : Fin 1) j).trans ?_
  refine (colMin_apply _ reduces_S4096x256_S256 j).trans ?_
  refine congrArg (fun f => Finset.fold min (Ideal.ofBits .f32 0x7F800000#32) f (Finset.univ : Finset (Fin 4096))) (funext fun n => ?_)
  show (broadcastTo S4096x256 _ broadcasts_S4096x1_S4096x256 (ix2 n j) + broadcastTo S4096x256 _ broadcasts_S1x256_S4096x256 (ix2 n j))
      - Ideal.ofBits .f32 0x40000000#32 * matmul dot_S4096x3_S256x3_S4096x256_1_1_0_0_n_n none _ _ _ (ix2 n j) = _
  refine congrArg₂ (· - ·) (congrArg₂ (· + ·) ?_ ?_) (congrArg (Ideal.ofBits .f32 0x40000000#32 * ·) ?_)
  · refine (broadcastTo_a1_ab_apply _ _ n j).trans ((shapeCast_a_a1_apply _ _ n 0).trans ((laneSum_apply _ _ n).trans ?_))
    refine Finset.sum_congr rfl fun k _ => ?_
    show shapeCast S4096x3 xp shapeCasts_S1x4096x3_S4096x3 (ix2 n k) * shapeCast S4096x3 xp shapeCasts_S1x4096x3_S4096x3 (ix2 n k) = _
    rw [shapeCast_1ab_ab_apply]
  · refine (broadcastTo_1b_ab_apply _ _ n j).trans ((transpose_ix2_apply _ _ (0 : Fin 1) j).trans
      ((shapeCast_a_a1_apply _ _ j 0).trans ((laneSum_apply _ _ j).trans ?_)))
    refine Finset.sum_congr rfl fun k _ => ?_
    show shapeCast S256x3 xq shapeCasts_S1x256x3_S256x3 (ix2 j k) * shapeCast S256x3 xq shapeCasts_S1x256x3_S256x3 (ix2 j k) = _
    rw [shapeCast_1ab_ab_apply]
  · refine (cross_apply _ _ n j).trans (Finset.sum_congr rfl fun k _ => ?_)
    show shapeCast S4096x3 xp shapeCasts_S1x4096x3_S4096x3 (ix2 n k) * shapeCast S256x3 xq shapeCasts_S1x256x3_S256x3 (ix2 j k) = _
    rw [shapeCast_1ab_ab_apply, shapeCast_1ab_ab_apply]

end Cert.KernelIdeal.RowValue

end
-- ==== Proof.Chamfer.lean ====
/-
  The quantity both programs compute before their common tail, on the extended reals: for a batch of eight
  clouds of 4096 reference points and 4096 query points in three coordinates, the squared distance from each
  query point to its nearest reference point, written as the least over the reference points of
  |p|² + |q|² − 2 p·q — the three sums over the coordinates kept apart, exactly as both programs form them.
-/
import Idealize.ShloMosaic.PureOps.Ideal
import Idealize.ShloMosaic.Lib.ValueIdx

noncomputable section

namespace Chamfer

open Idealize.ShloMosaic Idealize.ShloMosaic.ValueIdx

/-- A batch of point clouds: 8 clouds of 4096 points of 3 coordinates. -/
abbrev Clouds : Type := (⟨3, ![8, 4096, 3]⟩ : Shape).Idx → Ideal .f32

/-- |point n of cloud b|², the sum of its three squared coordinates. -/
def sq (A : Clouds) (b : Fin 8) (n : Fin 4096) : Ideal .f32 := ∑ k : Fin 3, A (ix3 b n k) * A (ix3 b n k)

/-- The inner product of reference point n and query point j of cloud b. -/
def dot (P Q : Clouds) (b : Fin 8) (n j : Fin 4096) : Ideal .f32 := ∑ k : Fin 3, P (ix3 b n k) * Q (ix3 b j k)

/-- |p|² + |q|² − 2 p·q for reference point n and query point j (the factor 2 as the f32 word both programs carry). -/
def pair (P Q : Clouds) (b : Fin 8) (n j : Fin 4096) : Ideal .f32 :=
  (sq P b n + sq Q b j) - Ideal.ofBits .f32 0x40000000#32 * dot P Q b n j

/-- For each cloud and query point, the least of `pair` over the 4096 reference points, starting from +∞ (the f32
    word 0x7F800000 both programs start their minimum from). -/
def nearest (P Q : Clouds) : (⟨2, ![8, 4096]⟩ : Shape).Idx → Ideal .f32 := fun i =>
  (Finset.univ : Finset (Fin 4096)).fold min (Ideal.ofBits .f32 0x7F800000#32) (fun n => pair P Q (i 0) n (i 1))

end Chamfer

end
-- ==== Proof.KFinal.lean ====
/-
  From the rows written back point by point to the whole output array of the idealized kernel's region. Grid point
  (b, mi) stages cloud b's whole reference block, the mi-th tile of 256 query points of cloud b, and writes back the
  mi-th stretch of 256 entries of row b of the output; the entry for query point mi·256 + j is the row entry j computed
  from those two blocks, which is `Chamfer.nearest` of the two arrays there. The 8 × 16 stretches tile the array, so
  after the run the output array is `Chamfer.nearest` of the two staged arrays everywhere.
-/
import proofs.«135733_j25829933318825_2_alg».proof.Proof.KI.Run
import proofs.«135733_j25829933318825_2_alg».proof.Proof.KRow
import proofs.«135733_j25829933318825_2_alg».proof.Proof.Chamfer
import Idealize.ShloMosaic.Lib.Pipeline.Value

set_option maxRecDepth 16384

noncomputable section

namespace Cert.KernelIdeal.Frm

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The least squared distances laid out as the region's output array: (cloud, a unit axis, query point). -/
def distArr (P Q : Chamfer.Clouds) : S8x1x4096.Idx → Ideal .f32 := fun i =>
  Chamfer.nearest P Q (ix2 (⟨(i 0).val, (i 0).isLt⟩ : Fin 8) (⟨(i 2).val, (i 2).isLt⟩ : Fin 4096))

/-- The row computed from a reference block and a query tile that are cloud b's points and the mi-th tile of cloud b's
    queries: its entry j is the least squared distance of query point mi·256 + j of cloud b. -/
theorem row_nearest (P Q : Chamfer.Clouds) (xp : Vec Ideal S1x4096x3 .f32) (xq : Vec Ideal S1x256x3 .f32)
    (b mi : ℕ) (hb : b < 8) (hmi : mi < 16)
    (hp : ∀ (n : Fin 4096) (k : Fin 3), xp (ix3 (0 : Fin 1) n k) = P (ix3 (⟨b, hb⟩ : Fin 8) n k))
    (hq : ∀ (j : Fin 256) (k : Fin 3), xq (ix3 (0 : Fin 1) j k) = Q (ix3 (⟨b, hb⟩ : Fin 8) (⟨mi * 256 + j.val, by omega⟩ : Fin 4096) k))
    (y : S1x1x256.Idx) (i : S8x1x4096.Idx) (hi0 : (i 0).val = b) (hi2 : (i 2).val = mi * 256 + (y 2).val) :
    k0_pay1 (F := Ideal) xp xq y = distArr P Q i := by
  obtain ⟨u, v, j, rfl⟩ : ∃ (u v : Fin 1) (j : Fin 256), y = ix3 u v j := ⟨y 0, y 1, y 2, eq_ix3 y⟩
  obtain rfl : u = 0 := Subsingleton.elim _ _
  obtain rfl : v = 0 := Subsingleton.elim _ _
  rw [RowValue.row_apply]
  unfold distArr Chamfer.nearest
  have e0 : (⟨(i 0).val, (i 0).isLt⟩ : Fin 8) = ⟨b, hb⟩ := Fin.ext hi0
  have e2 : (⟨(i 2).val, (i 2).isLt⟩ : Fin 4096) = ⟨mi * 256 + j.val, by omega⟩ := Fin.ext hi2
  show _ = Finset.fold min (Ideal.ofBits .f32 0x7F800000#32)
    (fun n => Chamfer.pair P Q (⟨(i 0).val, (i 0).isLt⟩ : Fin 8) n (⟨(i 2).val, (i 2).isLt⟩ : Fin 4096)) (Finset.univ : Finset (Fin 4096))
  rw [e0, e2]
  refine congrArg (fun f => Finset.fold min (Ideal.ofBits .f32 0x7F800000#32) f (Finset.univ : Finset (Fin 4096))) (funext fun n => ?_)
  unfold Chamfer.pair Chamfer.sq Chamfer.dot
  simp only [hp, hq]

theorem hz : (![0, 0, 0] : Fin 3 → Nat) = fun _ => 0 := funext fun a => by fin_cases a <;> rfl

/-- The printed index maps, decided over the 128 grid points: the reference window sits at (cloud, 0, 0), the query window
    at (cloud, tile, 0), the output window at (cloud, 0, tile). -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0
    ∧ win0_2.index t (1 : Fin 3) = 0 ∧ win0_2.index t (0 : Fin 3) < 8 ∧ win0_2.index t (2 : Fin 3) < 16 :=
  (by decide +kernel : ∀ t : Fin grid0.N, _)

/-- Every (cloud, tile) is some grid point's output block. -/
theorem idx_onto : ∀ (q0 : Fin 8) (q2 : Fin 16), ∃ t : Fin cfg0.N, win0_2.index t = ![q0.val, 0, q2.val] :=
  (by decide +kernel : ∀ (q0 : Fin 8) (q2 : Fin 16), ∃ t : Fin grid0.N, win0_2.index t = ![q0.val, 0, q2.val])

/-- What point t writes back is block t of the array of least squared distances. -/
theorem flushed_eq (P Q : Chamfer.Clouds) (c : Dev nD) (hP : ∀ i, V m c main_v1 i = P i) (hQ : ∀ i, V m c main_v2 i = Q i)
    (t : Fin cfg0.N) :
    (dats m 0 c).flushed 2 t = ((cfg0.win 2).blk t).view.read (Elt Ideal) (distArr P Q) := by
  show (cfg0.win 2).cut (grid0.coords t) ((dats m 0 c).after 2 t) = _
  rw [after_D]
  unfold outRow
  rw [View.canon_unit_zero hz]
  simp only [View.ld_unit_zero (S := S1x4096x3) hz, View.ld_unit_zero (S := S1x256x3) hz]
  obtain ⟨e00, e01, e02, e10, e11, e12, e21, hb, hmi⟩ := idx_facts t
  funext y
  show k0_pay1 (iblk m c 0 t) (iblk m c 1 t) y = distArr P Q (((cfg0.win 2).blk t).view.emb y)
  refine row_nearest P Q (iblk m c 0 t) (iblk m c 1 t) (win0_2.index t (0 : Fin 3)) (win0_2.index t (2 : Fin 3)) hb hmi ?_ ?_ y
    (((cfg0.win 2).blk t).view.emb y) ?_ ?_
  · intro n k
    rw [← hP]
    show V m c main_v1 (((cfg0.win 0).blk t).view.emb (ix3 (0 : Fin 1) n k)) = _
    refine congrArg (V m c main_v1) (funext fun a => Fin.ext ?_)
    match a with
    | ⟨0, _⟩ => show win0_0.index t (0 : Fin 3) * 1 + 1 * 0 = win0_2.index t (0 : Fin 3); omega
    | ⟨1, _⟩ => show win0_0.index t (1 : Fin 3) * 4096 + 1 * n.val = n.val; omega
    | ⟨2, _⟩ => show win0_0.index t (2 : Fin 3) * 3 + 1 * k.val = k.val; omega
  · intro j k
    rw [← hQ]
    show V m c main_v2 (((cfg0.win 1).blk t).view.emb (ix3 (0 : Fin 1) j k)) = _
    refine congrArg (V m c main_v2) (funext fun a => Fin.ext ?_)
    match a with
    | ⟨0, _⟩ => show win0_1.index t (0 : Fin 3) * 1 + 1 * 0 = win0_2.index t (0 : Fin 3); omega
    | ⟨1, _⟩ => show win0_1.index t (1 : Fin 3) * 256 + 1 * j.val = win0_2.index t (2 : Fin 3) * 256 + j.val; omega
    | ⟨2, _⟩ => show win0_1.index t (2 : Fin 3) * 3 + 1 * k.val = k.val; omega
  · have h0 : (y 0).val < 1 := (y 0).isLt
    show win0_2.index t (0 : Fin 3) * 1 + 1 * (y 0).val = win0_2.index t (0 : Fin 3); omega
  · show win0_2.index t (2 : Fin 3) * 256 + 1 * (y 2).val = win0_2.index t (2 : Fin 3) * 256 + (y 2).val; omega

/-- An index of the output array is in point t's block iff each coordinate is in the block's range on its axis. -/
theorem mem_blk (t : Fin cfg0.N) (i : S8x1x4096.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v3).slice (win0_2.rect t)).set ↔ _
  rw [View.set_slice_whole, Rect.mem_set_unit]
  exact Iff.rfl

/-- Every entry of the output array lies in some point's block: (cloud b, 0, q) in the block of point (b, q / 256). -/
theorem cover (i : S8x1x4096.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  obtain ⟨t, ht⟩ := idx_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 256 ≤ (i 2).val ∧ (i 2).val < win0_2.index t (2 : Fin 3) * 256 + 256; omega

/-- After the run the region's output array is the array of least squared distances of the two staged arrays. -/
theorem final_dist (P Q : Chamfer.Clouds) (c : Dev nD) (hP : ∀ i, V m c main_v1 i = P i) (hQ : ∀ i, V m c main_v2 i = Q i) :
    (dats m 0 c).arrAt 2 cfg0.N = distArr P Q :=
  (dats m 0 c).arrAt_eq_of_cover 2 (distArr P Q) (fun t _ => flushed_eq m P Q c hP hQ t) cover

end Cert.KernelIdeal.Frm

end
-- ==== Proof.Tail.lean ====
/-
  The host lines after the idealized kernel's region, against the reference's. After its nearest-neighbour stage the
  reference applies to the array of least squared distances and to the two prediction arrays exactly the lines the
  kernel's program applies after its region: the two threshold masks, the masked difference, its norm and softplus
  averaged over the selected points, and the masked squared difference averaged over the selected components. So from
  any buffer contents at the region's exit whose output array, recast to (cloud, query point), is the reference's array
  of least squared distances of the same prediction array, the two results are the reference's two results: the common
  lines are carried as one function of that array and never opened.
-/
import proofs.«135733_j25829933318825_2_alg».proof.Proof.KI.Host
import proofs.«135733_j25829933318825_2_alg».proof.Proof.Gen.ReferenceIdeal.Read

set_option maxRecDepth 16384

noncomputable section

namespace Cert.KernelIdeal.Frm

open Idealize.ShloMosaic Idealize.ShloMosaic.TcCoe Idealize.SL.Sem Idealize.ShloMosaic.StableHlo
open Cert.KernelIdeal Cert.KernelIdeal.Gen

set_option maxHeartbeats 4000000 in
/-- The first result (the loss over the moving points) after the later lines. -/
theorem tail_dyn (W : Valuation τ sig (Elt Ideal))
    (x0 : (⟨Cert.ReferenceIdeal.S8x4x4096x3, .f32⟩ : BufTy).Contents (Elt Ideal))
    (hd : shapeCast S8x4096 (W (Proc.devRef .tc main_v3)) shapeCasts_S8x1x4096_S8x4096
      = Cert.ReferenceIdeal.Read.val_main_v16 (F := Ideal) x0 (W (Proc.devRef .tc main_arg1))) :
    StableHlo.after (List.flatten (tailOps (F := Ideal))) W (Proc.devRef .tc main_v30)
      = Cert.ReferenceIdeal.Read.val_main_v42 (F := Ideal) x0 (W (Proc.devRef .tc main_arg1)) (W (Proc.devRef .tc main_arg2)) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  simp only [Cert.ReferenceIdeal.Read.val_main_cst_3, Cert.ReferenceIdeal.Read.val_main_v17, Cert.ReferenceIdeal.Read.val_main_v18, Cert.ReferenceIdeal.Read.val_main_v19, Cert.ReferenceIdeal.Read.val_main_cst_4, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_cst_5, Cert.ReferenceIdeal.Read.val_main_v28, Cert.ReferenceIdeal.Read.val_main_cst_6, Cert.ReferenceIdeal.Read.val_main_v29, Cert.ReferenceIdeal.Read.val_main_v30, Cert.ReferenceIdeal.Read.val_main_cst_7, Cert.ReferenceIdeal.Read.val_main_call0_v0, Cert.ReferenceIdeal.Read.val_main_call0_v1, Cert.ReferenceIdeal.Read.val_main_v31, Cert.ReferenceIdeal.Read.val_main_v32, Cert.ReferenceIdeal.Read.val_main_v33, Cert.ReferenceIdeal.Read.val_main_c, Cert.ReferenceIdeal.Read.val_main_v34, Cert.ReferenceIdeal.Read.val_main_cst_8, Cert.ReferenceIdeal.Read.val_main_v35, Cert.ReferenceIdeal.Read.val_main_v36, Cert.ReferenceIdeal.Read.val_main_call1_cst, Cert.ReferenceIdeal.Read.val_main_call1_v0, Cert.ReferenceIdeal.Read.val_main_call1_v1, Cert.ReferenceIdeal.Read.val_main_call1_v2, Cert.ReferenceIdeal.Read.val_main_call1_v3, Cert.ReferenceIdeal.Read.val_main_call1_v4, Cert.ReferenceIdeal.Read.val_main_call1_v5, Cert.ReferenceIdeal.Read.val_main_call1_v6, Cert.ReferenceIdeal.Read.val_main_call1_v7, Cert.ReferenceIdeal.Read.val_main_call1_v8, Cert.ReferenceIdeal.Read.val_main_call1_v9, Cert.ReferenceIdeal.Read.val_main_call1_v10, Cert.ReferenceIdeal.Read.val_main_call1_v11, Cert.ReferenceIdeal.Read.val_main_v37, Cert.ReferenceIdeal.Read.val_main_cst_9, Cert.ReferenceIdeal.Read.val_main_call2_v0, Cert.ReferenceIdeal.Read.val_main_call2_v1, Cert.ReferenceIdeal.Read.val_main_v38, Cert.ReferenceIdeal.Read.val_main_cst_10, Cert.ReferenceIdeal.Read.val_main_v39, Cert.ReferenceIdeal.Read.val_main_c_11, Cert.ReferenceIdeal.Read.val_main_v40, Cert.ReferenceIdeal.Read.val_main_v41, Cert.ReferenceIdeal.Read.val_main_v42]
  rw [← hd]
  rfl

set_option maxHeartbeats 4000000 in
/-- The second result (the loss over the static components) after the later lines. -/
theorem tail_stat (W : Valuation τ sig (Elt Ideal))
    (x0 : (⟨Cert.ReferenceIdeal.S8x4x4096x3, .f32⟩ : BufTy).Contents (Elt Ideal))
    (hd : shapeCast S8x4096 (W (Proc.devRef .tc main_v3)) shapeCasts_S8x1x4096_S8x4096
      = Cert.ReferenceIdeal.Read.val_main_v16 (F := Ideal) x0 (W (Proc.devRef .tc main_arg1))) :
    StableHlo.after (List.flatten (tailOps (F := Ideal))) W (Proc.devRef .tc main_v43)
      = Cert.ReferenceIdeal.Read.val_main_v55 (F := Ideal) x0 (W (Proc.devRef .tc main_arg1)) (W (Proc.devRef .tc main_arg2)) := by
  simp only [tailOps, hostOps1, hostOps1_1, hostOps1_2, hostOps1_3, hostOps1_4, hostOps1_5, hostOps1_6, hostOps1_7, hostOps1_8, List.flatten_cons, List.flatten_nil, List.append_nil, List.cons_append, List.nil_append]
  after_results_simp
  simp only [Cert.ReferenceIdeal.Read.val_main_cst_3, Cert.ReferenceIdeal.Read.val_main_v17, Cert.ReferenceIdeal.Read.val_main_v18, Cert.ReferenceIdeal.Read.val_main_v19, Cert.ReferenceIdeal.Read.val_main_cst_4, Cert.ReferenceIdeal.Read.val_main_v20, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_cst_5, Cert.ReferenceIdeal.Read.val_main_v28, Cert.ReferenceIdeal.Read.val_main_cst_6, Cert.ReferenceIdeal.Read.val_main_v29, Cert.ReferenceIdeal.Read.val_main_v30, Cert.ReferenceIdeal.Read.val_main_cst_7, Cert.ReferenceIdeal.Read.val_main_call0_v0, Cert.ReferenceIdeal.Read.val_main_call0_v1, Cert.ReferenceIdeal.Read.val_main_v31, Cert.ReferenceIdeal.Read.val_main_v32, Cert.ReferenceIdeal.Read.val_main_v33, Cert.ReferenceIdeal.Read.val_main_c, Cert.ReferenceIdeal.Read.val_main_v34, Cert.ReferenceIdeal.Read.val_main_cst_8, Cert.ReferenceIdeal.Read.val_main_v35, Cert.ReferenceIdeal.Read.val_main_v36, Cert.ReferenceIdeal.Read.val_main_call1_cst, Cert.ReferenceIdeal.Read.val_main_call1_v0, Cert.ReferenceIdeal.Read.val_main_call1_v1, Cert.ReferenceIdeal.Read.val_main_call1_v2, Cert.ReferenceIdeal.Read.val_main_call1_v3, Cert.ReferenceIdeal.Read.val_main_call1_v4, Cert.ReferenceIdeal.Read.val_main_call1_v5, Cert.ReferenceIdeal.Read.val_main_call1_v6, Cert.ReferenceIdeal.Read.val_main_call1_v7, Cert.ReferenceIdeal.Read.val_main_call1_v8, Cert.ReferenceIdeal.Read.val_main_call1_v9, Cert.ReferenceIdeal.Read.val_main_call1_v10, Cert.ReferenceIdeal.Read.val_main_call1_v11, Cert.ReferenceIdeal.Read.val_main_v37, Cert.ReferenceIdeal.Read.val_main_cst_9, Cert.ReferenceIdeal.Read.val_main_call2_v0, Cert.ReferenceIdeal.Read.val_main_call2_v1, Cert.ReferenceIdeal.Read.val_main_v38, Cert.ReferenceIdeal.Read.val_main_cst_10, Cert.ReferenceIdeal.Read.val_main_v39, Cert.ReferenceIdeal.Read.val_main_c_11, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_cst_12, Cert.ReferenceIdeal.Read.val_main_v46, Cert.ReferenceIdeal.Read.val_main_v47, Cert.ReferenceIdeal.Read.val_main_v48, Cert.ReferenceIdeal.Read.val_main_c_13, Cert.ReferenceIdeal.Read.val_main_v49, Cert.ReferenceIdeal.Read.val_main_v50, Cert.ReferenceIdeal.Read.val_main_cst_14, Cert.ReferenceIdeal.Read.val_main_call3_v0, Cert.ReferenceIdeal.Read.val_main_call3_v1, Cert.ReferenceIdeal.Read.val_main_v51, Cert.ReferenceIdeal.Read.val_main_cst_15, Cert.ReferenceIdeal.Read.val_main_v52, Cert.ReferenceIdeal.Read.val_main_c_16, Cert.ReferenceIdeal.Read.val_main_v53, Cert.ReferenceIdeal.Read.val_main_v54, Cert.ReferenceIdeal.Read.val_main_v55]
  rw [← hd]
  rfl

end Cert.KernelIdeal.Frm

end
-- ==== Proof.RefNearest.lean ====
/-
  The reference's nearest-neighbour stage is `Chamfer.nearest` of its two reshaped inputs: read index by index, its
  broadcasts of the two row sums and its batched dot product give |p|² + |q|² − 2 p·q at (cloud, reference point,
  query point), and its minimum over the reference-point axis from +∞ is the fold of `min` over that axis.
-/
import proofs.«135733_j25829933318825_2_alg».proof.Proof.Gen.ReferenceIdeal.Read
import proofs.«135733_j25829933318825_2_alg».proof.Proof.Chamfer
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The entry of the pairwise table at (cloud b, reference point n, query point j). -/
theorem pair_eq (x0 : (⟨S8x4x4096x3, .f32⟩ : BufTy).Contents (Elt Ideal)) (x1 : (⟨S8x1x4096x3, .f32⟩ : BufTy).Contents (Elt Ideal))
    (b : Fin 8) (n j : Fin 4096) :
    val_main_v15 (F := Ideal) x0 x1 (ix3 b n j)
      = Chamfer.pair (val_main_v1 (F := Ideal) x0) (val_main_v2 (F := Ideal) x1) b n j := by
  have e4 : ∀ k : Fin 3, idx_main_v4 (idx_main_v5 (idx_main_v9 (ix3 b n j))) k = ix3 b n k := fun k =>
    funext fun a => by match a with | ⟨0, _⟩ => rfl | ⟨1, _⟩ => rfl | ⟨2, _⟩ => rfl
  have e7 : ∀ k : Fin 3, idx_main_v7 (idx_main_v8 (idx_main_v10 (ix3 b n j))) k = ix3 b j k := fun k =>
    funext fun a => by match a with | ⟨0, _⟩ => rfl | ⟨1, _⟩ => rfl | ⟨2, _⟩ => rfl
  have el : ∀ k : Fin 3, lidx_main_v12 (ix3 b n j) k = ix3 b n k := fun k =>
    funext fun a => by match a with | ⟨0, _⟩ => rfl | ⟨1, _⟩ => rfl | ⟨2, _⟩ => rfl
  have er : ∀ k : Fin 3, ridx_main_v12 (ix3 b n j) k = ix3 b j k := fun k =>
    funext fun a => by match a with | ⟨0, _⟩ => rfl | ⟨1, _⟩ => rfl | ⟨2, _⟩ => rfl
  rw [val_main_v15_apply, val_main_v11_apply, val_main_v9_apply, val_main_v5_apply, val_main_v4_apply,
    val_main_v10_apply, val_main_v8_apply, val_main_v7_apply, val_main_v14_apply, val_main_v13_apply, val_main_v12_apply]
  simp only [val_main_v3_apply, val_main_v6_apply, val_main_cst_apply, val_main_cst_0_apply, val_main_cst_1_apply,
    e4, e7, el, er, Ideal.ofBits_def, Ideal.ofBits_zero_f32, zero_add, Ideal.addf_def, Ideal.subf_def, Ideal.mulf_def]
  rfl

/-- The reference-point axis of the pairwise table reduces onto (cloud, query point). -/
theorem hred : S8x4096x4096.Reduces [1] S8x4096 := by decide

/-- (cloud b, query point j) with reference point n put back on the reduced axis is (b, n, j). -/
theorem lift_eq (b : Fin 8) (j : Fin 4096) (n : Fin (S8x4096x4096.size 1)) :
    hred.lift (ix2 b j) n = ix3 b (⟨n.val, n.isLt⟩ : Fin 4096) j := by
  funext c; apply Fin.ext
  fin_cases c <;> rfl

/-- The reference's minimum over the reference points is `Chamfer.nearest` of the two reshaped inputs. -/
theorem dist_eq (x0 : (⟨S8x4x4096x3, .f32⟩ : BufTy).Contents (Elt Ideal)) (x1 : (⟨S8x1x4096x3, .f32⟩ : BufTy).Contents (Elt Ideal)) :
    val_main_v16 (F := Ideal) x0 x1 = Chamfer.nearest (val_main_v1 (F := Ideal) x0) (val_main_v2 (F := Ideal) x1) := by
  funext i
  obtain ⟨b, j, rfl⟩ : ∃ (b : Fin 8) (j : Fin 4096), i = ix2 b j := ⟨i 0, i 1, eq_ix2 i⟩
  unfold val_main_v16 Chamfer.nearest
  rw [Host.reduce_eq_fold_single FloatOps.minimumf _ _ reducesTo_S8x4096x4096_S8x4096_d1 hred h_S_]
  have hf : (val_main_v15 (F := Ideal) x0 x1 ∘ hred.lift (ix2 b j))
      = fun n : Fin 4096 => Chamfer.pair (val_main_v1 (F := Ideal) x0) (val_main_v2 (F := Ideal) x1) b n j :=
    funext fun n => by
      show val_main_v15 (F := Ideal) x0 x1 (hred.lift (ix2 b j) n) = _
      rw [lift_eq]
      exact pair_eq x0 x1 b _ j
  exact congrArg (fun f => Finset.fold min (Ideal.ofBits .f32 0x7F800000#32) f (Finset.univ : Finset (Fin 4096))) hf

end Cert.ReferenceIdeal.RefValue

end
-- ==== Proof.Bridge.lean ====
/-
  The idealized kernel's two results are the reference's two stages of the same arguments. The three host lines before
  the region are the reference's first three lines, so the region's two staged arrays are the reference's reshaped slice
  of `x` and reshaped first prediction; the region's output array is then the array of least squared distances of those
  two, which recast to (cloud, query point) is the reference's nearest-neighbour stage; and the later lines are the
  reference's later lines.
-/
import proofs.«135733_j25829933318825_2_alg».proof.Proof.KFinal
import proofs.«135733_j25829933318825_2_alg».proof.Proof.Tail
import proofs.«135733_j25829933318825_2_alg».proof.Proof.RefNearest

set_option maxRecDepth 16384

noncomputable section

namespace Cert.KernelIdeal.Frm

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The region's reference-set array is the reference program's reshaped slice of `x` (frame 2 of the four). -/
theorem V_points (c : Dev nD) :
    ∀ i, V m c main_v1 i = Cert.ReferenceIdeal.Read.val_main_v1 (F := Ideal) (m ((c : Thread nD τ).loc main_arg0)) i := by
  have h : (V m c main_v1 : S8x4096x3.Idx → Ideal .f32) = Cert.ReferenceIdeal.Read.val_main_v1 (F := Ideal) (m ((c : Thread nD τ).loc main_arg0)) := by
    show StableHlo.after hostOps0 (fun b => m (c, b)) (Proc.devRef .tc main_v1) = _
    after_results
    rfl
  exact fun i => congrFun h i

/-- The region's query array is the reference program's reshaped first prediction. -/
theorem V_queries (c : Dev nD) :
    ∀ i, V m c main_v2 i = Cert.ReferenceIdeal.Read.val_main_v2 (F := Ideal) (m ((c : Thread nD τ).loc main_arg1)) i := by
  have h : (V m c main_v2 : S8x4096x3.Idx → Ideal .f32) = Cert.ReferenceIdeal.Read.val_main_v2 (F := Ideal) (m ((c : Thread nD τ).loc main_arg1)) := by
    show StableHlo.after hostOps0 (fun b => m (c, b)) (Proc.devRef .tc main_v2) = _
    after_results
    rfl
  exact fun i => congrFun h i

/-- The output array with its unit axis dropped is the array of least squared distances by (cloud, query point). -/
theorem recast_dist (P Q : Chamfer.Clouds) :
    shapeCast S8x4096 (distArr P Q) shapeCasts_S8x1x4096_S8x4096 = Chamfer.nearest P Q := by
  funext i
  obtain ⟨b, q, rfl⟩ : ∃ (b : Fin 8) (q : Fin 4096), i = ix2 b q := ⟨i 0, i 1, eq_ix2 i⟩
  refine (shapeCast_apply (distArr P Q) shapeCasts_S8x1x4096_S8x4096 (ix2 b q) (ix3 b (0 : Fin 1) q) ?_).trans rfl
  rw [Shape.rowMajor_val_three, Shape.rowMajor_val_two]
  show (b.val * 1 + 0) * 4096 + q.val = b.val * 4096 + q.val
  omega

/-- The first result buffer after the later lines is the reference's first result stage. -/
theorem out_dyn (c : Dev nD) :
    Pipeline.afterTail₀ cfgs (dats m) 0 (V0 m) tailOps c main_v30
      = Cert.ReferenceIdeal.Read.val_main_v42 (F := Ideal) (m ((c : Thread nD τ).loc main_arg0)) (m ((c : Thread nD τ).loc main_arg1)) (m ((c : Thread nD τ).loc main_arg2)) := by
  have e3 : (Pipeline.withArrays spec0 c (V0 m c) (fun w => (dats m 0 c).arrAt w cfg0.N)) (Proc.devRef .tc main_v3) = (dats m 0 c).arrAt 2 cfg0.N :=
    Pipeline.withArrays_arr spec0 launch0.win.arr_inj c (V0 m c) (fun w => (dats m 0 c).arrAt w cfg0.N) 2
  have e1 : (Pipeline.withArrays spec0 c (V0 m c) (fun w => (dats m 0 c).arrAt w cfg0.N)) (Proc.devRef .tc main_arg1) = (m ((c : Thread nD τ).loc main_arg1)) :=
    (Pipeline.withArrays_of_ne spec0 c (V0 m c) (fun w => (dats m 0 c).arrAt w cfg0.N) main_arg1
      (by decide : ∀ w, Pipeline.arrRef spec0 w ≠ main_arg1)).trans (V_main_arg1 m c)
  have e2 : (Pipeline.withArrays spec0 c (V0 m c) (fun w => (dats m 0 c).arrAt w cfg0.N)) (Proc.devRef .tc main_arg2) = (m ((c : Thread nD τ).loc main_arg2)) :=
    (Pipeline.withArrays_of_ne spec0 c (V0 m c) (fun w => (dats m 0 c).arrAt w cfg0.N) main_arg2
      (by decide : ∀ w, Pipeline.arrRef spec0 w ≠ main_arg2)).trans (V_main_arg2 m c)
  have key := tail_dyn (Pipeline.withArrays spec0 c (V0 m c) (fun w => (dats m 0 c).arrAt w cfg0.N)) (m ((c : Thread nD τ).loc main_arg0)) (by
    rw [e3, e1, final_dist m _ _ c (V_points m c) (V_queries m c), recast_dist]
    exact (Cert.ReferenceIdeal.RefValue.dist_eq _ _).symm)
  rw [e1, e2] at key
  exact key

/-- The second result buffer after the later lines is the reference's second result stage. -/
theorem out_stat (c : Dev nD) :
    Pipeline.afterTail₀ cfgs (dats m) 0 (V0 m) tailOps c main_v43
      = Cert.ReferenceIdeal.Read.val_main_v55 (F := Ideal) (m ((c : Thread nD τ).loc main_arg0)) (m ((c : Thread nD τ).loc main_arg1)) (m ((c : Thread nD τ).loc main_arg2)) := by
  have e3 : (Pipeline.withArrays spec0 c (V0 m c) (fun w => (dats m 0 c).arrAt w cfg0.N)) (Proc.devRef .tc main_v3) = (dats m 0 c).arrAt 2 cfg0.N :=
    Pipeline.withArrays_arr spec0 launch0.win.arr_inj c (V0 m c) (fun w => (dats m 0 c).arrAt w cfg0.N) 2
  have e1 : (Pipeline.withArrays spec0 c (V0 m c) (fun w => (dats m 0 c).arrAt w cfg0.N)) (Proc.devRef .tc main_arg1) = (m ((c : Thread nD τ).loc main_arg1)) :=
    (Pipeline.withArrays_of_ne spec0 c (V0 m c) (fun w => (dats m 0 c).arrAt w cfg0.N) main_arg1
      (by decide : ∀ w, Pipeline.arrRef spec0 w ≠ main_arg1)).trans (V_main_arg1 m c)
  have e2 : (Pipeline.withArrays spec0 c (V0 m c) (fun w => (dats m 0 c).arrAt w cfg0.N)) (Proc.devRef .tc main_arg2) = (m ((c : Thread nD τ).loc main_arg2)) :=
    (Pipeline.withArrays_of_ne spec0 c (V0 m c) (fun w => (dats m 0 c).arrAt w cfg0.N) main_arg2
      (by decide : ∀ w, Pipeline.arrRef spec0 w ≠ main_arg2)).trans (V_main_arg2 m c)
  have key := tail_stat (Pipeline.withArrays spec0 c (V0 m c) (fun w => (dats m 0 c).arrAt w cfg0.N)) (m ((c : Thread nD τ).loc main_arg0)) (by
    rw [e3, e1, final_dist m _ _ c (V_points m c) (V_queries m c), recast_dist]
    exact (Cert.ReferenceIdeal.RefValue.dist_eq _ _).symm)
  rw [e1, e2] at key
  exact key

/-- The idealized kernel's run with its two results named: the reference's two result stages of the kernel's own arguments;
    the arguments unchanged. -/
theorem run_values : θ_run defs (onTc (τ := τ) (main (F := Ideal))) ⟨m, fun _ => 0, ρ⟩ (fun r => ∀ c : Dev nD,
      r.2.mem ((c.tc : Thread nD τ).loc main_v30) = Cert.ReferenceIdeal.Read.val_main_v42 (F := Ideal) (m ((c : Thread nD τ).loc main_arg0)) (m ((c : Thread nD τ).loc main_arg1)) (m ((c : Thread nD τ).loc main_arg2))
      ∧ r.2.mem ((c.tc : Thread nD τ).loc main_v43) = Cert.ReferenceIdeal.Read.val_main_v55 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_v30 (Pipeline.mem_restRefs_of main_v30 (by decide) (by decide))).trans (out_dyn m c),
    ((h c).2 main_v43 (Pipeline.mem_restRefs_of main_v43 (by decide) (by decide))).trans (out_stat m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩)
    (run_main m ρ)

end Cert.KernelIdeal.Frm

end
-- ==== Proof.lean ====
/-
  The certificate: the Chamfer-loss kernel against its jnp reference, over the extended reals.

  Both programs take a batch of eight clouds of 4096 points: `x` (four frames of reference points, of which frame 2
  is used) and two predictions `y0`, `y1` of 4096 query points each. Both first compute, for every query point of
  `y0`, the squared distance to its nearest reference point as the least over the reference points of
  |p|² + |q|² − 2 p·q, and then apply the same host lines to that array and to `y1 − y0`: two threshold masks, a norm
  and softplus averaged over the selected points, a squared difference averaged over the selected components.

  The kernel computes the nearest-neighbour stage in a pallas region over an 8 × 16 grid (cloud, tile of 256 query
  points); the reference computes it with a batched dot product and a minimum over an 8 × 4096 × 4096 table. At the
  extended reals the two are the same fold of `min` over the same 4096 terms, each the same three sums over the three
  coordinates: no algebraic law is needed beyond reading both sides index by index, so the precondition (finite
  inputs) is never opened. The idealization rewrote nothing, so `preserves` is trivial.

  The frames: the word-level kernel and the idealized kernel run their region point by point (the body's run, the
  proof data and the obligation are the same text at either float instance), every host line before and after the
  region touches only bypassing buffers and none writes an argument; the reference's frame is its generated run with
  the results dropped.
-/
import proofs.«135733_j25829933318825_2_alg».proof.Defs
import proofs.«135733_j25829933318825_2_alg».proof.Proof.Gen.Kernel
import proofs.«135733_j25829933318825_2_alg».proof.Proof.Gen.KernelIdeal
import proofs.«135733_j25829933318825_2_alg».proof.Proof.Gen.ReferenceIdeal
import proofs.«135733_j25829933318825_2_alg».proof.Proof.Gen.Pre_finite_inputs
import proofs.«135733_j25829933318825_2_alg».proof.Proof.Gen.ReferenceIdeal.Run
import proofs.«135733_j25829933318825_2_alg».proof.Proof.Gen.ReferenceIdeal.Read
import proofs.«135733_j25829933318825_2_alg».proof.Proof.K.Run
import proofs.«135733_j25829933318825_2_alg».proof.Proof.KI.Run
import proofs.«135733_j25829933318825_2_alg».proof.Proof.Bridge

noncomputable section

namespace Cert.Proof

open Idealize.ShloMosaic Idealize.SL.Sem

theorem frame_k : @Cert.frame_Kernel Cert.Kernel.Gen.facts Cert.Pre_finite_inputs.Gen.facts :=
  fun m ρ _ => Cert.Kernel.Frm.frame m ρ

theorem frame_ki : @Cert.frame_KernelIdeal Cert.KernelIdeal.Gen.facts Cert.Pre_finite_inputs.Gen.facts :=
  fun m ρ _ => Cert.KernelIdeal.Frm.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the reference's two result stages of the shared arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, Cert.KernelIdeal.Frm.run_values m ρ, ?_⟩
  refine (θ_run Cert.ReferenceIdeal.defs _ _).mono (fun _ h c => ?_) (Cert.ReferenceIdeal.Value.run (F := Ideal) m' ρ')
  obtain ⟨h0, h1, h2⟩ := hagree c
  refine ⟨(h c).1.trans ?_, (h c).2.1.trans ?_, (h c).2.2⟩
  · rw [Cert.ReferenceIdeal.Read.val_main_v42_eq, h0, h1, h2]
  · rw [Cert.ReferenceIdeal.Read.val_main_v55_eq, h0, h1, h2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
